-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32x64 : Shape := ⟨3, ![2048, 32, 64]⟩
abbrev S2048x2048 : Shape := ⟨2, ![2048, 2048]⟩
abbrev S2048 : Shape := ⟨1, ![2048]⟩
abbrev S_ : Shape := ⟨0, ![]⟩

class Facts : Prop where
  bcast_S_S2048x32x64 : S_.BroadcastsInDim S2048x32x64 (![] : Fin 0 → Fin S2048x32x64.rank)
  reducesTo_S2048x32x64_S_d0_1_2 : S2048x32x64.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048x2048 .f32) (main_arg6 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S2048x32x64 .f32) (main_arg1 : FVec F S2048x2048 .f32) (main_arg2 : FVec F S2048 .f32) (main_arg3 : FVec F S2048x2048 .f32) (main_arg4 : FVec F S2048 .f32) (main_arg5 : FVec F S2048x2048 .f32) (main_arg6 : FVec F S2048 .f32) : IVec S_ 1 :=
  let main_v0 : FVec F S2048x32x64 .f32 := Host.absf main_arg0
  let main_cst : FVec F S_ .f32 := constant S_ .f32 0x7F800000#32
  let main_v1 : FVec F S2048x32x64 .f32 := broadcastInDim S2048x32x64 ![] bcast_S_S2048x32x64 main_cst
  let main_v2 : IVec S2048x32x64 1 := cmpf .olt main_v0 main_v1
  let main_c : IVec S_ 1 := constantI S_ 1 1#1
  let main_v3 : IVec S_ 1 := (fun x v => Host.reduce IntOp.andi x v reducesTo_S2048x32x64_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S2048x32x64 : Shape := ⟨3, ![2048, 32, 64]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 20
  | .vmem => 20
  | .smem => 0
  | _ => 0

abbrev bufTy : (tb : Table) → Fin (tcTables nBuf tb) → BufTy
  | .hbm, ⟨0, _⟩ => ⟨S2048x32x64, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S2048x2048, .bf16⟩
  | .hbm, ⟨16, _⟩ => ⟨S2048x2048, .bf16⟩
  | .hbm, ⟨17, _⟩ => ⟨S2048x2048, .bf16⟩
  | .hbm, ⟨18, _⟩ => ⟨S2048x2048, .f32⟩
  | .hbm, ⟨19, _⟩ => ⟨S2048x32x64, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S2048x2048, .bf16⟩
  | .local _ .vmem, ⟨17, _⟩ => ⟨S2048x2048, .bf16⟩
  | .local _ .vmem, ⟨18, _⟩ => ⟨S256x2048, .f32⟩
  | .local _ .vmem, ⟨19, _⟩ => ⟨S256x2048, .f32⟩
  | _, _ => ⟨S2048x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S2048x32x64_S2048x2048 : S2048x32x64.ShapeCasts S2048x2048
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  packedbf16_S256x2048_S256x2048_0_0 : (Rect.unit (s := S256x2048) ![0, 0] S256x2048.size inb_S256x2048_S256x2048_0_0).PackedRows (EltTy.packing .bf16)
  reduces_S256x2048_S256 : S256x2048.Reduces [1] S256
  shapeCasts_S256_S256x1 : S256.ShapeCasts S256x1
  broadcasts_S256x1_S256x2048 : S256x1.Broadcasts S256x2048
  shapeCasts_S2048x2048_S2048x32x64 : S2048x2048.ShapeCasts S2048x32x64
  dot_S256x2048_S2048x2048_S256x2048_1_1_0_0_n_n_wf : DotDims.WF S256x2048 S2048x2048 S256x2048 [1] [1] [0] [0] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .bf16 = 32 ∨ (Rect.block (s := S2048x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .bf16 = 32 ∨ (Rect.block (s := S2048x2048) S256x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .bf16 = 32 ∨ (Rect.block (s := S2048x2048) S256x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S2048x2048.size a
  hwx1_3 : ∀ i : grid1.Coords, EltTy.bits .f32 = 32 ∨ (Rect.block (s := S2048x2048) S256x2048.size (cc1_transform_3 i) (hinb1_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S256x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S256x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_2) S256x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v8_0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x32x64 : Shape := ⟨3, ![2048, 32, 64]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S2048x1 : Shape := ⟨2, ![2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S2048x32x64, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S1x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x32x64, .f32⟩
  | _, _ => ⟨S2048x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  shapeCasts_S2048x32x64_S2048x2048 : S2048x32x64.ShapeCasts S2048x2048
  transposes_S2048x2048_S2048x2048_1_0 : S2048x2048.Transposes [1, 0] S2048x2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  shapeCasts_S2048x2048_S2048x32x64 : S2048x2048.ShapeCasts S2048x32x64
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.LibRowSoftmax.lean ====
/-
  A row normalised by its exponentials, and a one-axis contraction as a sum — general in every extent.

  * `rowMax`, `expRow`, `softRow`: for a row `sc` of extended reals indexed by `Fin S`, its maximum taken from the f32
    word of −∞ (the word is carried, never evaluated, so that two programs that print the same word agree by
    reading), the exponential of each entry's distance to that maximum, and each exponential over the sum of the
    row's exponentials. This is the row-wise softmax as both a kernel's lane reductions and a host's `reduce`
    operations compute it on the extended reals.
  * `max_fold_max_self`: a fold of `max` started from `a` is already at least `a`, so a further maximum with `a`
    changes nothing (a host softmax takes the maximum with −∞ once more after reducing from −∞).
  * `contraction_sum`: a contraction over ONE axis of extent `K` — how a matrix unit's product into a zero
    accumulator, and the host's `dot_general`, read on the extended reals — is the sum over that axis's coordinate
    of the two operands' entries, once each entry at the renamed contraction index is named. Whatever the operands'
    layouts (either may be contracted along either axis): the caller supplies the two index equations.

  No finiteness is needed anywhere.
-/
import Idealize.ShloMosaic.PureOps.Ideal.Laws
import Idealize.ShloMosaic.Lib.ValueIdx

noncomputable section

namespace Cert.Attn

open Idealize.ShloMosaic Idealize.ShloMosaic.ValueIdx

/-- The maximum of a row, taken from the f32 word of −∞. -/
def rowMax {S : Nat} (sc : Fin S → EReal) : EReal :=
  (Finset.univ : Finset (Fin S)).fold max (Ideal.ofBits .f32 0xFF800000#32) sc

/-- The exponential of each entry's distance to the row's maximum. -/
def expRow {S : Nat} (sc : Fin S → EReal) : Fin S → EReal := fun s => Ideal.exp (sc s - rowMax sc)

/-- A row normalised: each exponential over the sum of the row's exponentials. -/
def softRow {S : Nat} (sc : Fin S → EReal) : Fin S → EReal :=
  fun s => Ideal.div (expRow sc s) (∑ s' : Fin S, expRow sc s')

/-- The maximum with the starting value changes nothing: a fold of `max` from `a` is already at least `a`. -/
theorem max_fold_max_self {ι : Type} (s : Finset ι) (a : EReal) (f : ι → EReal) :
    max a (s.fold max a f) = s.fold max a f :=
  max_eq_right (by rw [Finset.le_fold_max]; exact Or.inl le_rfl)

/-- A contraction over ONE axis of extent `K` is the sum over that axis's coordinate, once each operand's entry at
    the renamed contraction index is named. -/
theorem contraction_sum {K : Nat} {sl sr so : Shape} (d : DotDims sl sr so) (hr : d.contr.rank = 1)
    (hs : d.contr.size ⟨0, by omega⟩ = K) (l : sl.Idx → EReal) (r : sr.Idx → EReal) (i : so.Idx) (L R : Fin K → EReal)
    (hl : ∀ k : Fin K, l (d.lhsIdx i ((contrEquiv1 d K hr hs).symm k)) = L k)
    (hw : ∀ k : Fin K, r (d.rhsIdx i ((contrEquiv1 d K hr hs).symm k)) = R k) :
    ∑ q : d.contr.Idx, l (d.lhsIdx i q) * r (d.rhsIdx i q) = ∑ k : Fin K, L k * R k := by
  rw [← Equiv.sum_comp (contrEquiv1 d K hr hs).symm]
  exact Finset.sum_congr rfl fun k _ => by rw [hl k, hw k]

end Cert.Attn

end
-- ==== Proof.Spec.lean ====
/-
  Single-head attention over 2048 rows of width 2048, entry by entry on the extended reals.

  With `Z` the 2048 × 2048 array of flattened latents, the three projections are `Z · Wᵀ + b` (entry (r, j) is the sum
  over `k` of `Z (r, k) · W (j, k)`, plus `b j`); the scores of a query row against every key row are the row's inner
  products with the keys, times the scale 1/8 (the f32 word 0x3E000000, the same word in both programs and never
  evaluated); the row is normalised by the exponential of its distance to its maximum (the maximum taken from the
  f32 word of −∞, again the same word on both sides) over the sum of those exponentials; and the output entry (r, j)
  is the normalised row's inner product with column `j` of the values.

  Every quantity of row `r` depends on the queries only through ROW `r` of the queries — which is why computing 256
  rows at a time gives the rows of the whole result — so each definition takes the row as a function of the column.
  The row's maximum, exponentials and normalisation are the general row definitions this module imports.
  Nothing here needs finiteness: the two programs are the same sums of the same products.
-/
import proofs.«116185_j60455959658874_2_alg».proof.Proof.LibRowSoftmax
import Idealize.ShloMosaic.PureOps.Ideal.Laws
import Idealize.ShloMosaic.Lib.ValueIdx

noncomputable section

namespace Cert.Attn

open Idealize.ShloMosaic Idealize.ShloMosaic.ValueIdx

/-- An `a × b` array of extended reals. -/
abbrev Mat (a b : Nat) : Type := (⟨2, ![a, b]⟩ : Shape).Idx → EReal

/-- Entry `j` of a row of `Z · Wᵀ + b`: the row of `Z` against row `j` of `W`, plus `b j`. -/
def projEntry {K N : Nat} (zr : Fin K → EReal) (w : Mat N K) (b : Fin N → EReal) (j : Fin N) : EReal :=
  (∑ k : Fin K, zr k * w (ix2 j k)) + b j

/-- `Z · Wᵀ + b` as an array: entry `(r, j)` from row `r` of `Z`. -/
def projArr {M K N : Nat} (z : Mat M K) (w : Mat N K) (b : (⟨1, ![N]⟩ : Shape).Idx → EReal) : Mat M N :=
  fun i => projEntry (fun k => z (ix2 (i 0 : Fin M) k)) w (fun j => b (ix1 j)) (i 1 : Fin N)

/-- The scaled scores of one query row against every key row. -/
def scoreRow {D S : Nat} (qr : Fin D → EReal) (k : Mat S D) : Fin S → EReal :=
  fun s => (∑ d : Fin D, qr d * k (ix2 s d)) * Ideal.ofBits .f32 0x3E000000#32

/-- Entry `j` of one row of the attention output: the normalised scores against column `j` of the values. -/
def attnEntry {D S N : Nat} (qr : Fin D → EReal) (k : Mat S D) (v : Mat S N) (j : Fin N) : EReal :=
  ∑ s : Fin S, softRow (scoreRow qr k) s * v (ix2 s j)

/-- The attention output as an array: entry `(r, j)` from row `r` of the queries. -/
def attnArr {M D S N : Nat} (q : Mat M D) (k : Mat S D) (v : Mat S N) : Mat M N :=
  fun i => attnEntry (fun d => q (ix2 (i 0 : Fin M) d)) k v (i 1 : Fin N)

/-- The whole computation on the flattened latents: attention over the three projections. -/
def attention (z wq wk wv : Mat 2048 2048) (bq bk bv : (⟨1, ![2048]⟩ : Shape).Idx → EReal) : Mat 2048 2048 :=
  attnArr (projArr z wq bq) (projArr z wk bk) (projArr z wv bv)

end Cert.Attn

end
-- ==== Proof.KernelProj.lean ====
/-
  The projection body at an entry.

  One grid step of the first kernel multiplies a block of 256 rows of the flattened latents by the transpose of a
  whole weight matrix — the contraction runs over the LAST axis of both operands, so entry (p, j) pairs row `p` of
  the block with row `j` of the weights — and adds the bias row, repeated down the 256 rows. The narrowing to
  sixteen bits at the end is the identity on the extended reals. So the stored block, at (p, j), is the
  specification's projection entry of the block's row `p`.

  First the two contraction patterns the kernels use, read by coordinates: `x · yᵀ` (left index (p, k), right index
  (j, k)) and `x · y` (left (p, k), right (k, j)).
-/
import proofs.«116185_j60455959658874_2_alg».proof.Proof.Gen.KernelIdeal.Skeleton
import proofs.«116185_j60455959658874_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Attn

/-! ## The contraction `x · yᵀ`: both operands contracted along their last axis -/

theorem dotT_lhs (p : Fin 256) (j k : Fin 2048) :
    dot_S256x2048_S2048x2048_S256x2048_1_1_0_0_n_n.lhsIdx (ix2 p j)
      ((contrEquiv1 dot_S256x2048_S2048x2048_S256x2048_1_1_0_0_n_n 2048 rfl rfl).symm k) = ix2 p k := by
  have hk := contrEquiv1_symm_val dot_S256x2048_S2048x2048_S256x2048_1_1_0_0_n_n 2048 rfl rfl k
  funext a; apply Fin.ext
  match a with
  | ⟨0, _⟩ =>
    show (dot_S256x2048_S2048x2048_S256x2048_1_1_0_0_n_n.lhsIdx (ix2 p j) _ 0).val = p.val
    unfold DotDims.lhsIdx
    rw [dif_neg (show ¬(0 : Fin S256x2048.rank) ∈ dot_S256x2048_S2048x2048_S256x2048_1_1_0_0_n_n.lhsBatch by decide),
      dif_pos (show (0 : Fin S256x2048.rank) ∈ dot_S256x2048_S2048x2048_S256x2048_1_1_0_0_n_n.lhsNonContracting by decide)]
    rfl
  | ⟨1, _⟩ =>
    exact (dot_S256x2048_S2048x2048_S256x2048_1_1_0_0_n_n.lhsIdx_val_of_single (cl := 1) rfl (ix2 p j) _).trans hk

theorem dotT_rhs (p : Fin 256) (j k : Fin 2048) :
    dot_S256x2048_S2048x2048_S256x2048_1_1_0_0_n_n.rhsIdx (ix2 p j)
      ((contrEquiv1 dot_S256x2048_S2048x2048_S256x2048_1_1_0_0_n_n 2048 rfl rfl).symm k) = ix2 j k := by
  have hk := contrEquiv1_symm_val dot_S256x2048_S2048x2048_S256x2048_1_1_0_0_n_n 2048 rfl rfl k
  funext a; apply Fin.ext
  match a with
  | ⟨0, _⟩ =>
    show (dot_S256x2048_S2048x2048_S256x2048_1_1_0_0_n_n.rhsIdx (ix2 p j) _ 0).val = j.val
    unfold DotDims.rhsIdx
    rw [dif_neg (show ¬(0 : Fin S2048x2048.rank) ∈ dot_S256x2048_S2048x2048_S256x2048_1_1_0_0_n_n.rhsBatch by decide),
      dif_pos (show (0 : Fin S2048x2048.rank) ∈ dot_S256x2048_S2048x2048_S256x2048_1_1_0_0_n_n.rhsNonContracting by decide)]
    rfl
  | ⟨1, _⟩ =>
    exact (dot_S256x2048_S2048x2048_S256x2048_1_1_0_0_n_n.rhsIdx_val_of_single (cr := 1) rfl (ix2 p j) _).trans hk

/-- `x · yᵀ` into a zero accumulator, at (p, j): the sum over `k` of `x (p, k) · y (j, k)`. -/
theorem matmulT_apply (x : FVec Ideal S256x2048 .bf16) (y : FVec Ideal S2048x2048 .bf16) (p : Fin 256) (j : Fin 2048) :
    matmul dot_S256x2048_S2048x2048_S256x2048_1_1_0_0_n_n none x y (constant S256x2048 .f32 0x00000000#32) (ix2 p j)
      = ∑ k : Fin 2048, x (ix2 p k) * y (ix2 j k) := by
  simp only [matmul]
  rw [Ideal.matmul_constant_zero_apply]
  exact contraction_sum (K := 2048) dot_S256x2048_S2048x2048_S256x2048_1_1_0_0_n_n rfl rfl x y (ix2 p j) _ _
    (fun k => by rw [dotT_lhs]) (fun k => by rw [dotT_rhs])

/-! ## The contraction `x · y`: the left operand's last axis against the right operand's first -/

theorem dotN_lhs (p : Fin 256) (j k : Fin 2048) :
    dot_S256x2048_S2048x2048_S256x2048_1_0_0_1_n_n.lhsIdx (ix2 p j)
      ((contrEquiv1 dot_S256x2048_S2048x2048_S256x2048_1_0_0_1_n_n 2048 rfl rfl).symm k) = ix2 p k := by
  have hk := contrEquiv1_symm_val dot_S256x2048_S2048x2048_S256x2048_1_0_0_1_n_n 2048 rfl rfl k
  funext a; apply Fin.ext
  match a with
  | ⟨0, _⟩ =>
    show (dot_S256x2048_S2048x2048_S256x2048_1_0_0_1_n_n.lhsIdx (ix2 p j) _ 0).val = p.val
    unfold DotDims.lhsIdx
    rw [dif_neg (show ¬(0 : Fin S256x2048.rank) ∈ dot_S256x2048_S2048x2048_S256x2048_1_0_0_1_n_n.lhsBatch by decide),
      dif_pos (show (0 : Fin S256x2048.rank) ∈ dot_S256x2048_S2048x2048_S256x2048_1_0_0_1_n_n.lhsNonContracting by decide)]
    rfl
  | ⟨1, _⟩ =>
    exact (dot_S256x2048_S2048x2048_S256x2048_1_0_0_1_n_n.lhsIdx_val_of_single (cl := 1) rfl (ix2 p j) _).trans hk

theorem dotN_rhs (p : Fin 256) (j k : Fin 2048) :
    dot_S256x2048_S2048x2048_S256x2048_1_0_0_1_n_n.rhsIdx (ix2 p j)
      ((contrEquiv1 dot_S256x2048_S2048x2048_S256x2048_1_0_0_1_n_n 2048 rfl rfl).symm k) = ix2 k j := by
  have hk := contrEquiv1_symm_val dot_S256x2048_S2048x2048_S256x2048_1_0_0_1_n_n 2048 rfl rfl k
  funext a; apply Fin.ext
  match a with
  | ⟨0, _⟩ =>
    exact (dot_S256x2048_S2048x2048_S256x2048_1_0_0_1_n_n.rhsIdx_val_of_single (cr := 0) rfl (ix2 p j) _).trans hk
  | ⟨1, _⟩ =>
    show (dot_S256x2048_S2048x2048_S256x2048_1_0_0_1_n_n.rhsIdx (ix2 p j) _ 1).val = j.val
    unfold DotDims.rhsIdx
    rw [dif_neg (show ¬(1 : Fin S2048x2048.rank) ∈ dot_S256x2048_S2048x2048_S256x2048_1_0_0_1_n_n.rhsBatch by decide),
      dif_pos (show (1 : Fin S2048x2048.rank) ∈ dot_S256x2048_S2048x2048_S256x2048_1_0_0_1_n_n.rhsNonContracting by decide)]
    rfl

/-- `x · y` into a zero accumulator, at (p, j): the sum over `k` of `x (p, k) · y (k, j)`. -/
theorem matmulN_apply (x : FVec Ideal S256x2048 .bf16) (y : FVec Ideal S2048x2048 .bf16) (p : Fin 256) (j : Fin 2048) :
    matmul dot_S256x2048_S2048x2048_S256x2048_1_0_0_1_n_n none x y (constant S256x2048 .f32 0x00000000#32) (ix2 p j)
      = ∑ k : Fin 2048, x (ix2 p k) * y (ix2 k j) := by
  simp only [matmul]
  rw [Ideal.matmul_constant_zero_apply]
  exact contraction_sum (K := 2048) dot_S256x2048_S2048x2048_S256x2048_1_0_0_1_n_n rfl rfl x y (ix2 p j) _ _
    (fun k => by rw [dotN_lhs]) (fun k => by rw [dotN_rhs])

/-! ## The projection body -/

/-- The block the projection body stores, at (p, j): row `p` of the latents' block against row `j` of the weights,
    plus entry `j` of the bias row. -/
theorem proj_pay_apply (x0 : Vec Ideal S256x2048 .bf16) (x1 : Vec Ideal S2048x2048 .bf16) (x2 : Vec Ideal S1x2048 .f32)
    (p : Fin 256) (j : Fin 2048) :
    k0_pay2 (F := Ideal) x0 x1 x2 (ix2 p j)
      = projEntry (fun k => x0 (ix2 p k)) x1 (fun j => x2 (ix2 (0 : Fin 1) j)) j := by
  unfold k0_pay2 k0_pay1
  dsimp only
  rw [truncf_apply, addf_apply, shapeCast_self, shapeCast_self, shapeCast_self, matmulT_apply, broadcastTo_1b_ab_apply]
  rfl

/-- The second and third projections are the same body on their own weights and bias. -/
theorem proj_pay3_apply (x0 : Vec Ideal S256x2048 .bf16) (x1 : Vec Ideal S2048x2048 .bf16) (x2 : Vec Ideal S1x2048 .f32)
    (p : Fin 256) (j : Fin 2048) :
    k0_pay3 (F := Ideal) x0 x1 x2 (ix2 p j)
      = projEntry (fun k => x0 (ix2 p k)) x1 (fun j => x2 (ix2 (0 : Fin 1) j)) j :=
  proj_pay_apply x0 x1 x2 p j

theorem proj_pay4_apply (x0 : Vec Ideal S256x2048 .bf16) (x1 : Vec Ideal S2048x2048 .bf16) (x2 : Vec Ideal S1x2048 .f32)
    (p : Fin 256) (j : Fin 2048) :
    k0_pay4 (F := Ideal) x0 x1 x2 (ix2 p j)
      = projEntry (fun k => x0 (ix2 p k)) x1 (fun j => x2 (ix2 (0 : Fin 1) j)) j :=
  proj_pay_apply x0 x1 x2 p j

end Cert.KernelIdeal.Pay

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.KernelAttn.lean ====
/-
  The attention body at an entry.

  One grid step of the second kernel takes a block of 256 query rows against ALL 2048 key rows and value rows. Row `p`
  of the block meets every key row `s` in an inner product over the 2048 columns, scaled by 1/8: the score row of
  query row `p`. The row's maximum is taken along the lane axis and kept as a column, the exponentials of the
  distances to it are summed along the same axis and kept as a column, and each exponential is divided by its row's
  sum: the normalised row. That row (narrowed to sixteen bits: the identity on the extended reals) then meets column
  `j` of the values. Every step reads only row `p` of the block, so the stored block at (p, j) is the specification's
  attention entry of the block's row `p`.
-/
import proofs.«116185_j60455959658874_2_alg».proof.Proof.KernelProj
import proofs.«116185_j60455959658874_2_alg».proof.Proof.LibColumnLayout

noncomputable section

namespace Cert.KernelIdeal.Pay

open Cert.KernelIdeal Cert.KernelIdeal.Gen Idealize.ShloMosaic Idealize.ShloMosaic.ValueIdx Cert.Attn
open Idealize.ShloMosaic.ColumnLayout

/-- Reducing a 256 × 2048 array along its lane axis: the index inserted at row `p` and lane `s` is (p, s). -/
theorem lift_row (p : Fin 256) (s : Fin 2048) :
    reduces_S256x2048_S256.lift (ix1 p) s = ix2 p s :=
  funext fun a => Fin.ext (by match a with | ⟨0, _⟩ => rfl | ⟨1, _⟩ => rfl)

/-- A row's maximum, kept as a column and repeated along the lanes, read at (p, s): the maximum of row `p`. -/
theorem rowmax_column_apply (v : FVec Ideal S256x2048 .f32) (p : Fin 256) (s : Fin 2048) :
    broadcastTo S256x2048 (shapeCast S256x1 (multiReduction .maximumf [1] S256 v 0xFF800000#32 reduces_S256x2048_S256 (.inl rfl) rfl)
        shapeCasts_S256_S256x1) broadcasts_S256x1_S256x2048 (ix2 p s)
      = rowMax (fun s' => v (ix2 p s')) := by
  refine (column_broadcast_apply _ shapeCasts_S256_S256x1 broadcasts_S256x1_S256x2048 p s).trans ?_
  refine (Ideal.multiReduction_maximumf_single v 0xFF800000#32 reduces_S256x2048_S256 (.inl rfl) rfl (ix1 p)).trans ?_
  unfold rowMax
  refine congrArg (fun f => (Finset.univ : Finset (Fin 2048)).fold max (Ideal.ofBits .f32 0xFF800000#32) f) ?_
  funext s'
  exact congrArg v (lift_row p s')

/-- A row's sum, kept as a column and repeated along the lanes, read at (p, s): the sum of row `p`. -/
theorem rowsum_column_apply (v : FVec Ideal S256x2048 .f32) (p : Fin 256) (s : Fin 2048) :
    broadcastTo S256x2048 (shapeCast S256x1 (multiReduction .add [1] S256 v 0x00000000#32 reduces_S256x2048_S256 (.inl rfl) rfl)
        shapeCasts_S256_S256x1) broadcasts_S256x1_S256x2048 (ix2 p s)
      = ∑ s' : Fin 2048, v (ix2 p s') := by
  refine (column_broadcast_apply _ shapeCasts_S256_S256x1 broadcasts_S256x1_S256x2048 p s).trans ?_
  refine (Ideal.multiReduction_add_single v 0x00000000#32 reduces_S256x2048_S256 (.inl rfl) rfl (ix1 p)).trans ?_
  exact Finset.sum_congr rfl fun s' _ => congrArg v (lift_row p s')

/-- The exponentials of a block of scores' distances to their rows' maxima, at (p, s): the exponential row of the
    block's row `p`. -/
theorem exp_block_apply (v : FVec Ideal S256x2048 .f32) (p : Fin 256) (s : Fin 2048) :
    exp (subf v (broadcastTo S256x2048 (shapeCast S256x1 (multiReduction .maximumf [1] S256 v 0xFF800000#32 reduces_S256x2048_S256 (.inl rfl) rfl)
        shapeCasts_S256_S256x1) broadcasts_S256x1_S256x2048)) (ix2 p s)
      = expRow (fun s' => v (ix2 p s')) s := by
  show Ideal.exp (v (ix2 p s) - _) = _
  rw [rowmax_column_apply]
  rfl

/-- A block of scores normalised along its rows, at (p, s): the normalised row of the block's row `p`. -/
theorem soft_block_apply (v : FVec Ideal S256x2048 .f32) (p : Fin 256) (s : Fin 2048) :
    divf (exp (subf v (broadcastTo S256x2048 (shapeCast S256x1 (multiReduction .maximumf [1] S256 v 0xFF800000#32 reduces_S256x2048_S256 (.inl rfl) rfl)
          shapeCasts_S256_S256x1) broadcasts_S256x1_S256x2048)))
        (broadcastTo S256x2048 (shapeCast S256x1 (multiReduction .add [1] S256
          (exp (subf v (broadcastTo S256x2048 (shapeCast S256x1 (multiReduction .maximumf [1] S256 v 0xFF800000#32 reduces_S256x2048_S256 (.inl rfl) rfl)
            shapeCasts_S256_S256x1) broadcasts_S256x1_S256x2048)))
          0x00000000#32 reduces_S256x2048_S256 (.inl rfl) rfl) shapeCasts_S256_S256x1) broadcasts_S256x1_S256x2048) (ix2 p s)
      = softRow (fun s' => v (ix2 p s')) s := by
  rw [divf_apply, rowsum_column_apply, exp_block_apply]
  unfold softRow
  exact congrArg (Ideal.div _) (Finset.sum_congr rfl fun s' _ => exp_block_apply v p s')

/-- The block the attention body stores, at (p, j): the attention entry of the query block's row `p` against all
    the keys and the values' column `j`. -/
theorem attn_pay_apply (x0 : Vec Ideal S256x2048 .bf16) (x1 : Vec Ideal S2048x2048 .bf16) (x2 : Vec Ideal S2048x2048 .bf16)
    (p : Fin 256) (j : Fin 2048) :
    k1_pay1 (F := Ideal) x0 x1 x2 (ix2 p j) = attnEntry (fun d => x0 (ix2 p d)) x1 x2 j := by
  unfold k1_pay1
  dsimp only
  rw [shapeCast_self, shapeCast_self, shapeCast_self, matmulN_apply]
  unfold attnEntry
  refine Finset.sum_congr rfl fun s _ => ?_
  refine congrArg (fun t => t * x2 (ix2 s j)) ?_
  rw [truncf_apply]
  refine (soft_block_apply _ p s).trans ?_
  refine congrArg (fun f => softRow f s) (funext fun s' => ?_)
  rw [mulf_apply, matmulT_apply]
  rfl

end Cert.KernelIdeal.Pay

end
-- ==== Proof.BlocksAttn.lean ====
/-
  From the attention kernel's blocks to its whole output array.

  The kernel's grid has eight points. At point `t` the query window's block is rows `256·t … 256·t + 255` of the
  queries (all 2048 columns), the key and value windows' blocks are the WHOLE arrays, and the output window's block
  is the same 256 rows of the output. So what point `t` writes back — the body's attention entries of its query
  block's rows — is exactly rows `256·t …` of the whole attention array of the queries, keys and values as the
  region finds them; the eight blocks tile the 2048 rows (row `r` lies in the block of point `r / 256`), so after
  the last write-back the output array IS that attention array.
-/
import proofs.«116185_j60455959658874_2_alg».proof.Proof.Gen.KernelIdeal.Frame
import proofs.«116185_j60455959658874_2_alg».proof.Proof.KernelAttn
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.Attn Cert.KernelIdeal.Pay
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The attention kernel's index maps over its eight points: the query and output windows sit at block row `t`,
    block column 0; the key and value windows at block (0, 0). -/
theorem attn_index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's stored block, at an entry of the block, is the whole attention array at the entry the output
    window's block places it — given that the query block's row is the queries' row there and that the key and
    value blocks are the whole arrays. -/
theorem attn_block_entry (x0 : Vec Ideal S256x2048 .bf16) (x1 x2 : Vec Ideal S2048x2048 .bf16)
    (q k v : Mat 2048 2048) (y : S256x2048.Idx) (i : S2048x2048.Idx)
    (h0 : ∀ d : Fin 2048, x0 (ix2 (y 0 : Fin 256) d) = q (ix2 (i 0 : Fin 2048) d))
    (h1 : ∀ z : S2048x2048.Idx, x1 z = k z) (h2 : ∀ z : S2048x2048.Idx, x2 z = v z)
    (hj : (y 1 : Fin 2048) = (i 1 : Fin 2048)) :
    k1_pay1 (F := Ideal) x0 x1 x2 y = attnArr q k v i := by
  obtain ⟨p, j, rfl⟩ : ∃ (p : Fin 256) (j : Fin 2048), y = ix2 p j := ⟨y 0, y 1, eq_ix2 y⟩
  obtain ⟨r, j', rfl⟩ : ∃ (r j' : Fin 2048), i = ix2 r j' := ⟨i 0, i 1, eq_ix2 i⟩
  have hj' : j = j' := hj
  subst hj'
  have h0' : ∀ d : Fin 2048, x0 (ix2 p d) = q (ix2 r d) := h0
  have e1 : x1 = k := funext h1
  have e2 : x2 = v := funext h2
  subst e1 e2
  rw [attn_pay_apply]
  show _ = attnEntry (fun d => q (ix2 r d)) x1 x2 j
  exact congrArg (fun f => attnEntry f x1 x2 j) (funext h0')

/-- WHAT POINT `t` WRITES BACK is block `t` of the attention array of the region's entry contents. -/
theorem flushed_attn (c : Dev nD) (t : Fin cfg1.N) :
    (dat1 V c).flushed 3 t
      = ((cfg1.win 3).blk t).view.read (Elt Ideal) (attnArr (V c main_v8_0) (V c main_v8_1) (V c main_v8_2)) := by
  show (cfg1.win 3).cut (grid1.coords t) ((dat1 V c).after 3 t) = _
  rw [after1_3]
  unfold out1_3
  rw [View.canon_unit_zero zero_offsets]
  simp only [View.ld_unit_zero (S := S256x2048) zero_offsets, View.ld_unit_zero (S := S2048x2048) zero_offsets]
  obtain ⟨e00, e01, e10, e11, e20, e21, e30, e31⟩ := attn_index_facts t
  funext y
  refine attn_block_entry _ _ _ _ _ _ y (((cfg1.win 3).blk t).view.emb y) (fun d => ?_) (fun z => ?_) (fun z => ?_) ?_
  · show V c main_v8_0 (((cfg1.win 0).blk t).view.emb (ix2 (y 0 : Fin 256) d)) = V c main_v8_0 (ix2 _ d)
    refine congrArg (V c main_v8_0) (funext fun a => Fin.ext ?_)
    match a with
    | ⟨0, _⟩ =>
      show win1_0.index t (0 : Fin 2) * 256 + 1 * (y 0).val = win1_3.index t (0 : Fin 2) * 256 + 1 * (y 0).val
      rw [e00, e30]
    | ⟨1, _⟩ =>
      show win1_0.index t (1 : Fin 2) * 2048 + 1 * d.val = d.val
      rw [e01]; omega
  · show V c main_v8_1 (((cfg1.win 1).blk t).view.emb z) = V c main_v8_1 z
    refine congrArg (V c main_v8_1) (funext fun a => Fin.ext ?_)
    match a with
    | ⟨0, _⟩ => show win1_1.index t (0 : Fin 2) * 2048 + 1 * (z 0).val = (z 0).val; rw [e10]; omega
    | ⟨1, _⟩ => show win1_1.index t (1 : Fin 2) * 2048 + 1 * (z 1).val = (z 1).val; rw [e11]; omega
  · show V c main_v8_2 (((cfg1.win 2).blk t).view.emb z) = V c main_v8_2 z
    refine congrArg (V c main_v8_2) (funext fun a => Fin.ext ?_)
    match a with
    | ⟨0, _⟩ => show win1_2.index t (0 : Fin 2) * 2048 + 1 * (z 0).val = (z 0).val; rw [e20]; omega
    | ⟨1, _⟩ => show win1_2.index t (1 : Fin 2) * 2048 + 1 * (z 1).val = (z 1).val; rw [e21]; omega
  · apply Fin.ext
    show (y 1).val = win1_3.index t (1 : Fin 2) * 2048 + 1 * (y 1).val
    rw [e31]; omega

/-- An entry of the output array is in point `t`'s block iff each coordinate is in the block's range on its axis. -/
theorem mem_attn_block (t : Fin cfg1.N) (i : S2048x2048.Idx) :
    i ∈ ((cfg1.win 3).blk t).view.set ↔ ∀ a : Fin 2, win1_3.index t a * S256x2048.size a ≤ (i a).val
      ∧ (i a).val < win1_3.index t a * S256x2048.size a + S256x2048.size a := by
  show i ∈ ((View.whole main_v9).slice (win1_3.rect t)).set ↔ _
  rw [View.set_slice_whole, Rect.mem_set_unit]
  exact Iff.rfl

/-- The eight blocks tile the output: row `r` is in the block of point `r / 256`. -/
theorem attn_cover (i : S2048x2048.Idx) :
    ∃ t : Fin cfg1.N, (cfg1.win 3).flush t = true ∧ i ∈ ((cfg1.win 3).blk t).view.set := by
  have hN : grid1.N = 8 := N_1
  have hi0 : (i 0).val < 2048 := (i 0).isLt
  have hi1 : (i 1).val < 2048 := (i 1).isLt
  let t : Fin cfg1.N := ⟨(i 0).val / 256, by show (i 0).val / 256 < grid1.N; rw [hN]; omega⟩
  obtain ⟨-, -, -, -, -, -, e30, e31⟩ := attn_index_facts t
  have ht : t.val = (i 0).val / 256 := rfl
  refine ⟨t, flush1_3 t, ?_⟩
  rw [mem_attn_block]
  intro a
  match a with
  | ⟨0, _⟩ =>
    show win1_3.index t (0 : Fin 2) * 256 ≤ (i 0).val ∧ (i 0).val < win1_3.index t (0 : Fin 2) * 256 + 256
    rw [e30, ht]; omega
  | ⟨1, _⟩ =>
    show win1_3.index t (1 : Fin 2) * 2048 ≤ (i 1).val ∧ (i 1).val < win1_3.index t (1 : Fin 2) * 2048 + 2048
    rw [e31]; omega

/-- THE OUTPUT ARRAY after the attention kernel: the attention array of the queries, keys and values the region
    was entered with. -/
theorem final_attn (c : Dev nD) :
    (dat1 V c).arrAt 3 cfg1.N = attnArr (V c main_v8_0) (V c main_v8_1) (V c main_v8_2) :=
  (dat1 V c).arrAt_eq_of_cover 3 _ (fun t _ => flushed_attn V c t) attn_cover

end Cert.KernelIdeal.Blocks

end
-- ==== Proof.BlocksProj.lean ====
/-
  From the projection kernel's blocks to its three whole output arrays.

  The kernel's grid has eight points. At point `t` the latents' window holds rows `256·t … 256·t + 255` of the flattened
  latents; the three weight windows and the three bias windows hold their WHOLE arrays at every point; and each of the
  three output windows holds the same 256 rows of its output array. So what point `t` writes back to an output —
  the body's projection entries of its latents block's rows — is rows `256·t …` of the whole projection of the
  latents by that output's weights and bias, as the region finds them; the eight blocks tile the 2048 rows, so after
  the last write-back each output array IS that projection. The three outputs differ only in which weight and bias
  windows they read.
-/
import proofs.«116185_j60455959658874_2_alg».proof.Proof.Gen.KernelIdeal.Frame
import proofs.«116185_j60455959658874_2_alg».proof.Proof.KernelProj
import Idealize.ShloMosaic.Lib.Pipeline.Value

set_option maxRecDepth 16384

noncomputable section

namespace Cert.KernelIdeal.BlocksP

open Cert.KernelIdeal Cert.KernelIdeal.Gen Idealize.ShloMosaic Idealize.ShloMosaic.TcCoe Idealize.ShloMosaic.ValueIdx
open Idealize.SL.Sem Cert.Attn Cert.KernelIdeal.Pay
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored block, at an entry of the block, is the whole projection array at the entry the output
    window's block places it — given that the latents block's row is the latents' row there, that the weight block
    is the whole weight array, and that the bias block's one row is the bias. -/
theorem proj_block_entry (x0 : Vec Ideal S256x2048 .bf16) (x1 : Vec Ideal S2048x2048 .bf16) (x2 : Vec Ideal S1x2048 .f32)
    (z w : Mat 2048 2048) (b : (⟨1, ![2048]⟩ : Shape).Idx → EReal) (y : S256x2048.Idx) (i : S2048x2048.Idx)
    (h0 : ∀ d : Fin 2048, x0 (ix2 (y 0 : Fin 256) d) = z (ix2 (i 0 : Fin 2048) d))
    (h1 : ∀ u : S2048x2048.Idx, x1 u = w u)
    (h2 : ∀ j : Fin 2048, x2 (ix2 (0 : Fin 1) j) = b (ix1 j))
    (hj : (y 1 : Fin 2048) = (i 1 : Fin 2048)) :
    k0_pay2 (F := Ideal) x0 x1 x2 y = projArr z w b i := by
  obtain ⟨p, j, rfl⟩ : ∃ (p : Fin 256) (j : Fin 2048), y = ix2 p j := ⟨y 0, y 1, eq_ix2 y⟩
  obtain ⟨r, j', rfl⟩ : ∃ (r j' : Fin 2048), i = ix2 r j' := ⟨i 0, i 1, eq_ix2 i⟩
  have hj' : j = j' := hj
  subst hj'
  have h0' : ∀ d : Fin 2048, x0 (ix2 p d) = z (ix2 r d) := h0
  have e1 : x1 = w := funext h1
  subst e1
  rw [proj_pay_apply]
  show _ = projEntry (fun k => z (ix2 r k)) x1 (fun j => b (ix1 j)) j
  rw [show (fun k => x0 (ix2 p k)) = (fun k => z (ix2 r k)) from funext h0',
    show (fun j => x2 (ix2 (0 : Fin 1) j)) = (fun j => b (ix1 j)) from funext h2]

/-- The projection kernel's index maps over its eight points, for the query output: the latents' window and the
    output window sit at block row `t`, block column 0; the weight and bias windows at block (0, 0). -/
theorem proj_index_facts_q : ∀ t : Fin cfg0.N,
    win0_0.index t (0 : Fin 2) = t.val ∧ win0_0.index t (1 : Fin 2) = 0
    ∧ win0_1.index t (0 : Fin 2) = 0 ∧ win0_1.index t (1 : Fin 2) = 0
    ∧ win0_4.index t (0 : Fin 2) = 0 ∧ win0_4.index t (1 : Fin 2) = 0
    ∧ win0_7.index t (0 : Fin 2) = t.val ∧ win0_7.index t (1 : Fin 2) = 0 :=
  (by decide +kernel : ∀ t : Fin grid0.N, _)

/-- The projection kernel's index maps over its eight points, for the key output: the latents' window and the
    output window sit at block row `t`, block column 0; the weight and bias windows at block (0, 0). -/
theorem proj_index_facts_k : ∀ t : Fin cfg0.N,
    win0_0.index t (0 : Fin 2) = t.val ∧ win0_0.index t (1 : Fin 2) = 0
    ∧ win0_2.index t (0 : Fin 2) = 0 ∧ win0_2.index t (1 : Fin 2) = 0
    ∧ win0_5.index t (0 : Fin 2) = 0 ∧ win0_5.index t (1 : Fin 2) = 0
    ∧ win0_8.index t (0 : Fin 2) = t.val ∧ win0_8.index t (1 : Fin 2) = 0 :=
  (by decide +kernel : ∀ t : Fin grid0.N, _)

/-- The projection kernel's index maps over its eight points, for the value output: the latents' window and the
    output window sit at block row `t`, block column 0; the weight and bias windows at block (0, 0). -/
theorem proj_index_facts_v : ∀ t : Fin cfg0.N,
    win0_0.index t (0 : Fin 2) = t.val ∧ win0_0.index t (1 : Fin 2) = 0
    ∧ win0_3.index t (0 : Fin 2) = 0 ∧ win0_3.index t (1 : Fin 2) = 0
    ∧ win0_6.index t (0 : Fin 2) = 0 ∧ win0_6.index t (1 : Fin 2) = 0
    ∧ win0_9.index t (0 : Fin 2) = t.val ∧ win0_9.index t (1 : Fin 2) = 0 :=
  (by decide +kernel : ∀ t : Fin grid0.N, _)

/-! ## The query projection: output window 7 -/

/-- WHAT POINT `t` WRITES BACK to the query array is block `t` of the projection of the region's entry contents. -/
theorem flushed_q (c : Dev nD) (t : Fin cfg0.N) :
    (dat0 V c).flushed 7 t
      = ((cfg0.win 7).blk t).view.read (Elt Ideal)
          (projArr (V c main_v1) (V c main_v2) (fun j => V c main_v5 (ix2 (0 : Fin 1) (j 0 : Fin 2048)))) := by
  show (cfg0.win 7).cut (grid0.coords t) ((dat0 V c).after 7 t) = _
  rw [after0_7]
  unfold out0_7
  rw [View.canon_unit_zero zero_offsets]
  simp only [View.ld_unit_zero (S := S256x2048) zero_offsets, View.ld_unit_zero (S := S2048x2048) zero_offsets,
    View.ld_unit_zero (S := S1x2048) zero_offsets]
  obtain ⟨e00, e01, ew0, ew1, eb0, eb1, eo0, eo1⟩ := proj_index_facts_q t
  funext y
  show k0_pay2 (F := Ideal) (iblk0 V c 0 t) (iblk0 V c 1 t) (iblk0 V c 4 t) y
      = projArr (V c main_v1) (V c main_v2) (fun j => V c main_v5 (ix2 (0 : Fin 1) (j 0 : Fin 2048))) (((cfg0.win 7).blk t).view.emb y)
  refine proj_block_entry (iblk0 V c 0 t) (iblk0 V c 1 t) (iblk0 V c 4 t) (V c main_v1) (V c main_v2)
    (fun j => V c main_v5 (ix2 (0 : Fin 1) (j 0 : Fin 2048))) y (((cfg0.win 7).blk t).view.emb y) (fun d => ?_) (fun z => ?_) (fun j => ?_) ?_
  · show V c main_v1 (((cfg0.win 0).blk t).view.emb (ix2 (y 0 : Fin 256) d)) = V c main_v1 (ix2 _ d)
    refine congrArg (V c main_v1) (funext fun a => Fin.ext ?_)
    match a with
    | ⟨0, _⟩ =>
      show win0_0.index t (0 : Fin 2) * 256 + 1 * (y 0).val = win0_7.index t (0 : Fin 2) * 256 + 1 * (y 0).val
      rw [e00, eo0]
    | ⟨1, _⟩ =>
      show win0_0.index t (1 : Fin 2) * 2048 + 1 * d.val = d.val
      rw [e01]; omega
  · show V c main_v2 (((cfg0.win 1).blk t).view.emb z) = V c main_v2 z
    refine congrArg (V c main_v2) (funext fun a => Fin.ext ?_)
    match a with
    | ⟨0, _⟩ => show win0_1.index t (0 : Fin 2) * 2048 + 1 * (z 0).val = (z 0).val; rw [ew0]; omega
    | ⟨1, _⟩ => show win0_1.index t (1 : Fin 2) * 2048 + 1 * (z 1).val = (z 1).val; rw [ew1]; omega
  · show V c main_v5 (((cfg0.win 4).blk t).view.emb (ix2 (0 : Fin 1) j)) = V c main_v5 (ix2 (0 : Fin 1) j)
    refine congrArg (V c main_v5) (funext fun a => Fin.ext ?_)
    match a with
    | ⟨0, _⟩ => show win0_4.index t (0 : Fin 2) * 1 + 1 * 0 = 0; rw [eb0]
    | ⟨1, _⟩ => show win0_4.index t (1 : Fin 2) * 2048 + 1 * j.val = j.val; rw [eb1]; omega
  · apply Fin.ext
    show (y 1).val = win0_7.index t (1 : Fin 2) * 2048 + 1 * (y 1).val
    rw [eo1]; omega

/-- An entry of the query array is in point `t`'s block iff each coordinate is in the block's range on its axis. -/
theorem mem_block_q (t : Fin cfg0.N) (i : S2048x2048.Idx) :
    i ∈ ((cfg0.win 7).blk t).view.set ↔ ∀ a : Fin 2, win0_7.index t a * S256x2048.size a ≤ (i a).val
      ∧ (i a).val < win0_7.index t a * S256x2048.size a + S256x2048.size a := by
  show i ∈ ((View.whole main_v8_0).slice (win0_7.rect t)).set ↔ _
  rw [View.set_slice_whole, Rect.mem_set_unit]
  exact Iff.rfl

/-- The eight blocks tile the query array: row `r` is in the block of point `r / 256`. -/
theorem cover_q (i : S2048x2048.Idx) :
    ∃ t : Fin cfg0.N, (cfg0.win 7).flush t = true ∧ i ∈ ((cfg0.win 7).blk t).view.set := by
  have hN : grid0.N = 8 := N_0
  have hi0 : (i 0).val < 2048 := (i 0).isLt
  have hi1 : (i 1).val < 2048 := (i 1).isLt
  let t : Fin cfg0.N := ⟨(i 0).val / 256, by show (i 0).val / 256 < grid0.N; rw [hN]; omega⟩
  obtain ⟨-, -, -, -, -, -, eo0, eo1⟩ := proj_index_facts_q t
  have ht : t.val = (i 0).val / 256 := rfl
  refine ⟨t, flush0_7 t, ?_⟩
  rw [mem_block_q]
  intro a
  match a with
  | ⟨0, _⟩ =>
    show win0_7.index t (0 : Fin 2) * 256 ≤ (i 0).val ∧ (i 0).val < win0_7.index t (0 : Fin 2) * 256 + 256
    rw [eo0, ht]; omega
  | ⟨1, _⟩ =>
    show win0_7.index t (1 : Fin 2) * 2048 ≤ (i 1).val ∧ (i 1).val < win0_7.index t (1 : Fin 2) * 2048 + 2048
    rw [eo1]; omega

/-- THE QUERY ARRAY after the projection kernel: the projection of the latents by the query weights and bias
    the region was entered with. -/
theorem final_q (c : Dev nD) :
    (dat0 V c).arrAt 7 cfg0.N
      = projArr (V c main_v1) (V c main_v2) (fun j => V c main_v5 (ix2 (0 : Fin 1) (j 0 : Fin 2048))) :=
  (dat0 V c).arrAt_eq_of_cover 7 _ (fun t _ => flushed_q V c t) cover_q

/-! ## The key projection: output window 8 -/

/-- WHAT POINT `t` WRITES BACK to the key array is block `t` of the projection of the region's entry contents. -/
theorem flushed_k (c : Dev nD) (t : Fin cfg0.N) :
    (dat0 V c).flushed 8 t
      = ((cfg0.win 8).blk t).view.read (Elt Ideal)
          (projArr (V c main_v1) (V c main_v3) (fun j => V c main_v6 (ix2 (0 : Fin 1) (j 0 : Fin 2048)))) := by
  show (cfg0.win 8).cut (grid0.coords t) ((dat0 V c).after 8 t) = _
  rw [after0_8]
  unfold out0_8
  rw [View.canon_unit_zero zero_offsets]
  simp only [View.ld_unit_zero (S := S256x2048) zero_offsets, View.ld_unit_zero (S := S2048x2048) zero_offsets,
    View.ld_unit_zero (S := S1x2048) zero_offsets]
  obtain ⟨e00, e01, ew0, ew1, eb0, eb1, eo0, eo1⟩ := proj_index_facts_k t
  funext y
  show k0_pay3 (F := Ideal) (iblk0 V c 0 t) (iblk0 V c 2 t) (iblk0 V c 5 t) y
      = projArr (V c main_v1) (V c main_v3) (fun j => V c main_v6 (ix2 (0 : Fin 1) (j 0 : Fin 2048))) (((cfg0.win 8).blk t).view.emb y)
  refine proj_block_entry (iblk0 V c 0 t) (iblk0 V c 2 t) (iblk0 V c 5 t) (V c main_v1) (V c main_v3)
    (fun j => V c main_v6 (ix2 (0 : Fin 1) (j 0 : Fin 2048))) y (((cfg0.win 8).blk t).view.emb y) (fun d => ?_) (fun z => ?_) (fun j => ?_) ?_
  · show V c main_v1 (((cfg0.win 0).blk t).view.emb (ix2 (y 0 : Fin 256) d)) = V c main_v1 (ix2 _ d)
    refine congrArg (V c main_v1) (funext fun a => Fin.ext ?_)
    match a with
    | ⟨0, _⟩ =>
      show win0_0.index t (0 : Fin 2) * 256 + 1 * (y 0).val = win0_8.index t (0 : Fin 2) * 256 + 1 * (y 0).val
      rw [e00, eo0]
    | ⟨1, _⟩ =>
      show win0_0.index t (1 : Fin 2) * 2048 + 1 * d.val = d.val
      rw [e01]; omega
  · show V c main_v3 (((cfg0.win 2).blk t).view.emb z) = V c main_v3 z
    refine congrArg (V c main_v3) (funext fun a => Fin.ext ?_)
    match a with
    | ⟨0, _⟩ => show win0_2.index t (0 : Fin 2) * 2048 + 1 * (z 0).val = (z 0).val; rw [ew0]; omega
    | ⟨1, _⟩ => show win0_2.index t (1 : Fin 2) * 2048 + 1 * (z 1).val = (z 1).val; rw [ew1]; omega
  · show V c main_v6 (((cfg0.win 5).blk t).view.emb (ix2 (0 : Fin 1) j)) = V c main_v6 (ix2 (0 : Fin 1) j)
    refine congrArg (V c main_v6) (funext fun a => Fin.ext ?_)
    match a with
    | ⟨0, _⟩ => show win0_5.index t (0 : Fin 2) * 1 + 1 * 0 = 0; rw [eb0]
    | ⟨1, _⟩ => show win0_5.index t (1 : Fin 2) * 2048 + 1 * j.val = j.val; rw [eb1]; omega
  · apply Fin.ext
    show (y 1).val = win0_8.index t (1 : Fin 2) * 2048 + 1 * (y 1).val
    rw [eo1]; omega

/-- An entry of the key array is in point `t`'s block iff each coordinate is in the block's range on its axis. -/
theorem mem_block_k (t : Fin cfg0.N) (i : S2048x2048.Idx) :
    i ∈ ((cfg0.win 8).blk t).view.set ↔ ∀ a : Fin 2, win0_8.index t a * S256x2048.size a ≤ (i a).val
      ∧ (i a).val < win0_8.index t a * S256x2048.size a + S256x2048.size a := by
  show i ∈ ((View.whole main_v8_1).slice (win0_8.rect t)).set ↔ _
  rw [View.set_slice_whole, Rect.mem_set_unit]
  exact Iff.rfl

/-- The eight blocks tile the key array: row `r` is in the block of point `r / 256`. -/
theorem cover_k (i : S2048x2048.Idx) :
    ∃ t : Fin cfg0.N, (cfg0.win 8).flush t = true ∧ i ∈ ((cfg0.win 8).blk t).view.set := by
  have hN : grid0.N = 8 := N_0
  have hi0 : (i 0).val < 2048 := (i 0).isLt
  have hi1 : (i 1).val < 2048 := (i 1).isLt
  let t : Fin cfg0.N := ⟨(i 0).val / 256, by show (i 0).val / 256 < grid0.N; rw [hN]; omega⟩
  obtain ⟨-, -, -, -, -, -, eo0, eo1⟩ := proj_index_facts_k t
  have ht : t.val = (i 0).val / 256 := rfl
  refine ⟨t, flush0_8 t, ?_⟩
  rw [mem_block_k]
  intro a
  match a with
  | ⟨0, _⟩ =>
    show win0_8.index t (0 : Fin 2) * 256 ≤ (i 0).val ∧ (i 0).val < win0_8.index t (0 : Fin 2) * 256 + 256
    rw [eo0, ht]; omega
  | ⟨1, _⟩ =>
    show win0_8.index t (1 : Fin 2) * 2048 ≤ (i 1).val ∧ (i 1).val < win0_8.index t (1 : Fin 2) * 2048 + 2048
    rw [eo1]; omega

/-- THE KEY ARRAY after the projection kernel: the projection of the latents by the key weights and bias
    the region was entered with. -/
theorem final_k (c : Dev nD) :
    (dat0 V c).arrAt 8 cfg0.N
      = projArr (V c main_v1) (V c main_v3) (fun j => V c main_v6 (ix2 (0 : Fin 1) (j 0 : Fin 2048))) :=
  (dat0 V c).arrAt_eq_of_cover 8 _ (fun t _ => flushed_k V c t) cover_k

/-! ## The value projection: output window 9 -/

/-- WHAT POINT `t` WRITES BACK to the value array is block `t` of the projection of the region's entry contents. -/
theorem flushed_v (c : Dev nD) (t : Fin cfg0.N) :
    (dat0 V c).flushed 9 t
      = ((cfg0.win 9).blk t).view.read (Elt Ideal)
          (projArr (V c main_v1) (V c main_v4) (fun j => V c main_v7 (ix2 (0 : Fin 1) (j 0 : Fin 2048)))) := by
  show (cfg0.win 9).cut (grid0.coords t) ((dat0 V c).after 9 t) = _
  rw [after0_9]
  unfold out0_9
  rw [View.canon_unit_zero zero_offsets]
  simp only [View.ld_unit_zero (S := S256x2048) zero_offsets, View.ld_unit_zero (S := S2048x2048) zero_offsets,
    View.ld_unit_zero (S := S1x2048) zero_offsets]
  obtain ⟨e00, e01, ew0, ew1, eb0, eb1, eo0, eo1⟩ := proj_index_facts_v t
  funext y
  show k0_pay4 (F := Ideal) (iblk0 V c 0 t) (iblk0 V c 3 t) (iblk0 V c 6 t) y
      = projArr (V c main_v1) (V c main_v4) (fun j => V c main_v7 (ix2 (0 : Fin 1) (j 0 : Fin 2048))) (((cfg0.win 9).blk t).view.emb y)
  refine proj_block_entry (iblk0 V c 0 t) (iblk0 V c 3 t) (iblk0 V c 6 t) (V c main_v1) (V c main_v4)
    (fun j => V c main_v7 (ix2 (0 : Fin 1) (j 0 : Fin 2048))) y (((cfg0.win 9).blk t).view.emb y) (fun d => ?_) (fun z => ?_) (fun j => ?_) ?_
  · show V c main_v1 (((cfg0.win 0).blk t).view.emb (ix2 (y 0 : Fin 256) d)) = V c main_v1 (ix2 _ d)
    refine congrArg (V c main_v1) (funext fun a => Fin.ext ?_)
    match a with
    | ⟨0, _⟩ =>
      show win0_0.index t (0 : Fin 2) * 256 + 1 * (y 0).val = win0_9.index t (0 : Fin 2) * 256 + 1 * (y 0).val
      rw [e00, eo0]
    | ⟨1, _⟩ =>
      show win0_0.index t (1 : Fin 2) * 2048 + 1 * d.val = d.val
      rw [e01]; omega
  · show V c main_v4 (((cfg0.win 3).blk t).view.emb z) = V c main_v4 z
    refine congrArg (V c main_v4) (funext fun a => Fin.ext ?_)
    match a with
    | ⟨0, _⟩ => show win0_3.index t (0 : Fin 2) * 2048 + 1 * (z 0).val = (z 0).val; rw [ew0]; omega
    | ⟨1, _⟩ => show win0_3.index t (1 : Fin 2) * 2048 + 1 * (z 1).val = (z 1).val; rw [ew1]; omega
  · show V c main_v7 (((cfg0.win 6).blk t).view.emb (ix2 (0 : Fin 1) j)) = V c main_v7 (ix2 (0 : Fin 1) j)
    refine congrArg (V c main_v7) (funext fun a => Fin.ext ?_)
    match a with
    | ⟨0, _⟩ => show win0_6.index t (0 : Fin 2) * 1 + 1 * 0 = 0; rw [eb0]
    | ⟨1, _⟩ => show win0_6.index t (1 : Fin 2) * 2048 + 1 * j.val = j.val; rw [eb1]; omega
  · apply Fin.ext
    show (y 1).val = win0_9.index t (1 : Fin 2) * 2048 + 1 * (y 1).val
    rw [eo1]; omega

/-- An entry of the value array is in point `t`'s block iff each coordinate is in the block's range on its axis. -/
theorem mem_block_v (t : Fin cfg0.N) (i : S2048x2048.Idx) :
    i ∈ ((cfg0.win 9).blk t).view.set ↔ ∀ a : Fin 2, win0_9.index t a * S256x2048.size a ≤ (i a).val
      ∧ (i a).val < win0_9.index t a * S256x2048.size a + S256x2048.size a := by
  show i ∈ ((View.whole main_v8_2).slice (win0_9.rect t)).set ↔ _
  rw [View.set_slice_whole, Rect.mem_set_unit]
  exact Iff.rfl

/-- The eight blocks tile the value array: row `r` is in the block of point `r / 256`. -/
theorem cover_v (i : S2048x2048.Idx) :
    ∃ t : Fin cfg0.N, (cfg0.win 9).flush t = true ∧ i ∈ ((cfg0.win 9).blk t).view.set := by
  have hN : grid0.N = 8 := N_0
  have hi0 : (i 0).val < 2048 := (i 0).isLt
  have hi1 : (i 1).val < 2048 := (i 1).isLt
  let t : Fin cfg0.N := ⟨(i 0).val / 256, by show (i 0).val / 256 < grid0.N; rw [hN]; omega⟩
  obtain ⟨-, -, -, -, -, -, eo0, eo1⟩ := proj_index_facts_v t
  have ht : t.val = (i 0).val / 256 := rfl
  refine ⟨t, flush0_9 t, ?_⟩
  rw [mem_block_v]
  intro a
  match a with
  | ⟨0, _⟩ =>
    show win0_9.index t (0 : Fin 2) * 256 ≤ (i 0).val ∧ (i 0).val < win0_9.index t (0 : Fin 2) * 256 + 256
    rw [eo0, ht]; omega
  | ⟨1, _⟩ =>
    show win0_9.index t (1 : Fin 2) * 2048 ≤ (i 1).val ∧ (i 1).val < win0_9.index t (1 : Fin 2) * 2048 + 2048
    rw [eo1]; omega

/-- THE VALUE ARRAY after the projection kernel: the projection of the latents by the value weights and bias
    the region was entered with. -/
theorem final_v (c : Dev nD) :
    (dat0 V c).arrAt 9 cfg0.N
      = projArr (V c main_v1) (V c main_v4) (fun j => V c main_v7 (ix2 (0 : Fin 1) (j 0 : Fin 2048))) :=
  (dat0 V c).arrAt_eq_of_cover 9 _ (fun t _ => flushed_v V c t) cover_v

end Cert.KernelIdeal.BlocksP

end
-- ==== Proof.HostEnds.lean ====
/-
  The host operations around the two kernels.

  Before the first kernel the program flattens the latents [2048, 32, 64] to [2048, 2048], narrows them and the three
  weight matrices to sixteen bits — the identity on the extended reals — and gives each bias vector a leading unit
  axis. After the second kernel it reshapes the [2048, 2048] output back to [2048, 32, 64]. So the first kernel is
  entered with the flattened latents, the weights themselves and the biases as single rows, and the program's result
  is the reshape of what the second kernel leaves.
-/
import proofs.«116185_j60455959658874_2_alg».proof.Proof.Gen.KernelIdeal.Frame
import proofs.«116185_j60455959658874_2_alg».proof.Proof.Spec
import Idealize.ShloMosaic.Lib.StableHlo.Run
import Idealize.ShloMosaic.Lib.ValueIdx
import Idealize.ShloMosaic.Lib.ValueLayout

set_option maxRecDepth 16384

noncomputable section

namespace Cert.KernelIdeal.HostEnds

open Cert.KernelIdeal Cert.KernelIdeal.Gen Idealize.ShloMosaic Idealize.ShloMosaic.TcCoe Idealize.ShloMosaic.ValueIdx
open Idealize.SL.Sem Idealize.ShloMosaic.StableHlo Cert.Attn

variable (m : (ℓ : Loc nD τ sig) → Buf (Elt Ideal) ℓ) (ρ : Dev nD → PrngReg)

/-- The first kernel finds, as its latents, the launch latents flattened. -/
theorem entry_latents (c : Dev nD) :
    (V1 m ρ c main_v1 : Mat 2048 2048)
      = shapeCast S2048x2048 (m ((c : Thread nD τ).loc main_arg0)) shapeCasts_S2048x32x64_S2048x2048 := by
  show StableHlo.after hostOps0 (W0 m ρ c) (Proc.devRef .tc main_v1) = _
  after_results
  rfl

/-- … as its three weight matrices, the launch weights … -/
theorem entry_wq (c : Dev nD) : (V1 m ρ c main_v2 : Mat 2048 2048) = m ((c : Thread nD τ).loc main_arg1) := by
  show StableHlo.after hostOps0 (W0 m ρ c) (Proc.devRef .tc main_v2) = _
  after_results
  rfl
theorem entry_wk (c : Dev nD) : (V1 m ρ c main_v3 : Mat 2048 2048) = m ((c : Thread nD τ).loc main_arg3) := by
  show StableHlo.after hostOps0 (W0 m ρ c) (Proc.devRef .tc main_v3) = _
  after_results
  rfl
theorem entry_wv (c : Dev nD) : (V1 m ρ c main_v4 : Mat 2048 2048) = m ((c : Thread nD τ).loc main_arg5) := by
  show StableHlo.after hostOps0 (W0 m ρ c) (Proc.devRef .tc main_v4) = _
  after_results
  rfl

/-- … and as its three bias rows, the launch biases with a leading unit axis: entry (0, j) is the bias at `j`. -/
theorem entry_bq (c : Dev nD) (j : Fin 2048) :
    V1 m ρ c main_v5 (ix2 (0 : Fin 1) j) = m ((c : Thread nD τ).loc main_arg2) (ix1 j) := by
  show StableHlo.after hostOps0 (W0 m ρ c) (Proc.devRef .tc main_v5) (ix2 (0 : Fin 1) j) = _
  after_results
  exact shapeCast_a_1a_apply _ shapeCasts_S2048_S1x2048 0 j
theorem entry_bk (c : Dev nD) (j : Fin 2048) :
    V1 m ρ c main_v6 (ix2 (0 : Fin 1) j) = m ((c : Thread nD τ).loc main_arg4) (ix1 j) := by
  show StableHlo.after hostOps0 (W0 m ρ c) (Proc.devRef .tc main_v6) (ix2 (0 : Fin 1) j) = _
  after_results
  exact shapeCast_a_1a_apply _ shapeCasts_S2048_S1x2048 0 j
theorem entry_bv (c : Dev nD) (j : Fin 2048) :
    V1 m ρ c main_v7 (ix2 (0 : Fin 1) j) = m ((c : Thread nD τ).loc main_arg6) (ix1 j) := by
  show StableHlo.after hostOps0 (W0 m ρ c) (Proc.devRef .tc main_v7) (ix2 (0 : Fin 1) j) = _
  after_results
  exact shapeCast_a_1a_apply _ shapeCasts_S2048_S1x2048 0 j

/-- The program's result is the reshape of the second kernel's output array. -/
theorem exit_result (c : Dev nD) :
    W4 m ρ c (Proc.devRef .tc main_v10)
      = shapeCast S2048x32x64 (W3 m ρ c (Proc.devRef .tc main_v9)) shapeCasts_S2048x2048_S2048x32x64 := by
  show StableHlo.after hostOps2 (W3 m ρ c) (Proc.devRef .tc main_v10) = _
  after_results
  rfl

end Cert.KernelIdeal.HostEnds

end
-- ==== Proof.KernelValue.lean ====
/-
  The idealized kernel's result, as one function of its arguments.

  Following the program's four segments: the first kernel is entered with the flattened latents, the three weight
  matrices and the three biases (as single rows), and leaves the three projections of the latents; the second
  kernel is entered with those three arrays as queries, keys and values and leaves their attention array; the last
  host operation reshapes it to [2048, 32, 64]. So the result buffer ends holding the reshape of the specification's
  attention of the flattened latents, weights and biases — and the run, re-posted with that, is the kernel's half of
  the claim.
-/
import proofs.«116185_j60455959658874_2_alg».proof.Proof.RunNamed
import proofs.«116185_j60455959658874_2_alg».proof.Proof.BlocksAttn
import proofs.«116185_j60455959658874_2_alg».proof.Proof.BlocksProj
import proofs.«116185_j60455959658874_2_alg».proof.Proof.HostEnds

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Cert.Attn Cert.KernelIdeal.HostEnds Cert.KernelIdeal.Blocks Cert.KernelIdeal.BlocksP

variable (m : (ℓ : Loc nD τ sig) → Buf (Elt Ideal) ℓ) (ρ : Dev nD → PrngReg)

/-- The launch latents, flattened to 2048 × 2048. -/
abbrev flat (c : Dev nD) : Mat 2048 2048 :=
  shapeCast S2048x2048 (m ((c : Thread nD τ).loc main_arg0)) shapeCasts_S2048x32x64_S2048x2048

/-- A bias row read back as the bias vector: entry (0, j) of the row is the vector's entry `j`. -/
theorem bias_row (b : (⟨1, ![2048]⟩ : Shape).Idx → EReal) (row : (⟨2, ![1, 2048]⟩ : Shape).Idx → EReal)
    (h : ∀ j : Fin 2048, row (ix2 (0 : Fin 1) j) = b (ix1 j)) :
    (fun j : (⟨1, ![2048]⟩ : Shape).Idx => row (ix2 (0 : Fin 1) (j 0 : Fin 2048))) = b :=
  funext fun j => (h (j 0 : Fin 2048)).trans (congrArg b (eq_ix1 j).symm)

/-- The second kernel's queries: the projection of the flattened latents by the first weights and bias. -/
theorem queries (c : Dev nD) :
    (V2 m ρ c main_v8_0 : Mat 2048 2048)
      = projArr (flat m c) (m ((c : Thread nD τ).loc main_arg1)) (m ((c : Thread nD τ).loc main_arg2)) := by
  refine ((W2_arr m ρ c 7).trans (final_q (V1 m ρ) c)).trans ?_
  rw [entry_latents, entry_wq, bias_row _ _ (entry_bq m ρ c)]

/-- Its keys: the projection by the second weights and bias. -/
theorem keys (c : Dev nD) :
    (V2 m ρ c main_v8_1 : Mat 2048 2048)
      = projArr (flat m c) (m ((c : Thread nD τ).loc main_arg3)) (m ((c : Thread nD τ).loc main_arg4)) := by
  refine ((W2_arr m ρ c 8).trans (final_k (V1 m ρ) c)).trans ?_
  rw [entry_latents, entry_wk, bias_row _ _ (entry_bk m ρ c)]

/-- Its values: the projection by the third weights and bias. -/
theorem values (c : Dev nD) :
    (V2 m ρ c main_v8_2 : Mat 2048 2048)
      = projArr (flat m c) (m ((c : Thread nD τ).loc main_arg5)) (m ((c : Thread nD τ).loc main_arg6)) := by
  refine ((W2_arr m ρ c 9).trans (final_v (V1 m ρ) c)).trans ?_
  rw [entry_latents, entry_wv, bias_row _ _ (entry_bv m ρ c)]

/-- The result buffer at the end of the segments' fold: the reshape of the attention of the flattened latents. -/
theorem result_value (c : Dev nD) :
    W4 m ρ c (Proc.devRef .tc main_v10)
      = shapeCast S2048x32x64
          (attention (flat m c) (m ((c : Thread nD τ).loc main_arg1)) (m ((c : Thread nD τ).loc main_arg3))
            (m ((c : Thread nD τ).loc main_arg5)) (m ((c : Thread nD τ).loc main_arg2)) (m ((c : Thread nD τ).loc main_arg4))
            (m ((c : Thread nD τ).loc main_arg6)))
          shapeCasts_S2048x2048_S2048x32x64 := by
  rw [exit_result]
  refine congrArg (fun x => shapeCast S2048x32x64 x shapeCasts_S2048x2048_S2048x32x64) ?_
  refine ((W3_arr m ρ c 3).trans (final_attn (V2 m ρ) c)).trans ?_
  unfold attention
  rw [queries, keys, values]

/-- The kernel's run with its result named: every weakly fair execution terminates, nothing faulting, with the
    result at the reshape of the attention of the flattened latents and every argument as launched. -/
theorem run : θ_run defs (onTc (τ := τ) (main (F := Ideal))) ⟨m, fun _ => 0, ρ⟩ (fun r => ∀ c : Dev nD,
      r.2.mem ((c.tc : Thread nD τ).loc main_v10)
        = shapeCast S2048x32x64
            (attention (flat m c) (m ((c : Thread nD τ).loc main_arg1)) (m ((c : Thread nD τ).loc main_arg3))
              (m ((c : Thread nD τ).loc main_arg5)) (m ((c : Thread nD τ).loc main_arg2)) (m ((c : Thread nD τ).loc main_arg4))
              (m ((c : Thread nD τ).loc main_arg6)))
            shapeCasts_S2048x2048_S2048x32x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_value m ρ c), (h c).2⟩)
    (Cert.KernelIdeal.RunValue.run_named (F := Ideal) m ρ)

end Cert.KernelIdeal.Whole

end
-- ==== Proof.RefValue.lean ====
/-
  The reference program computes single-head attention, stage by stage; this module reads its last stage before the
  final reshape, entry by entry, as the specification's `attention` of the flattened input and the three
  weight / bias pairs.

  Each stage is read at an index with coordinates named (a row `r` and a column): the three projections are a row of
  the flattened input against a row of the weights plus the bias; the scores are a row of the queries against the key
  rows, scaled; the row maximum is a fold of `max` from the word of −∞ (the outer maximum with that same word
  changes nothing); the exponentials, their sum and the quotient follow pointwise; the last contraction is the
  normalised row against a column of the values.
-/
import proofs.«116185_j60455959658874_2_alg».proof.Proof.Gen.ReferenceIdeal.Read
import proofs.«116185_j60455959658874_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Attn

/-- Two rank-2 indices with the same coordinates, or two rank-1 ones, are equal: by cases on the axis. -/
local macro "idx_cases" : tactic =>
  `(tactic| (funext a; first | (match a with | ⟨0, _⟩ => rfl | ⟨1, _⟩ => rfl) | (match a with | ⟨0, _⟩ => rfl)))

abbrev A3 : Type := (⟨S2048x32x64, .f32⟩ : BufTy).Contents (Elt Ideal)
abbrev A2 : Type := (⟨S2048x2048, .f32⟩ : BufTy).Contents (Elt Ideal)
abbrev A1 : Type := (⟨S2048, .f32⟩ : BufTy).Contents (Elt Ideal)

/-! ## The three projections -/

/-- Entry `(r, j)` of the query projection: row `r` of the flattened input against row `j` of the weights, plus the bias. -/
theorem v5_entry (x0 : A3) (x1 : A2) (x2 : A1) (r j : Fin 2048) :
    val_main_v5 (F := Ideal) x0 x1 x2 (ix2 r j)
      = projEntry (fun k => val_main_v0 (F := Ideal) x0 (ix2 r k)) x1 (fun j => x2 (ix1 j)) j := by
  rw [val_main_v5_apply, val_main_v2_apply, val_main_v4_apply, val_main_v3_apply]
  generalize val_main_v0 (F := Ideal) x0 = z
  simp only [val_main_v1_apply]
  have el : ∀ k : Fin 2048, lidx_main_v2 (ix2 r j) k = ix2 r k := fun k => by idx_cases
  have er : ∀ k : Fin 2048, idx_main_v1 (ridx_main_v2 (ix2 r j) k) = ix2 j k := fun k => by idx_cases
  have eb : idx_main_v3 (idx_main_v4 (ix2 r j)) = ix1 j := by idx_cases
  simp only [el, er, eb]
  rfl

/-- So the query projection is the specification's array. -/
theorem v5_eq (x0 : A3) (x1 : A2) (x2 : A1) :
    val_main_v5 (F := Ideal) x0 x1 x2 = projArr (val_main_v0 (F := Ideal) x0) x1 x2 := by
  funext i
  obtain ⟨r, j, rfl⟩ : ∃ (r j : Fin 2048), i = ix2 r j := ⟨i 0, i 1, eq_ix2 i⟩
  rw [v5_entry]
  generalize val_main_v0 (F := Ideal) x0 = z
  rfl

/-- Entry `(r, j)` of the key projection: row `r` of the flattened input against row `j` of the weights, plus the bias. -/
theorem v10_entry (x0 : A3) (x3 : A2) (x4 : A1) (r j : Fin 2048) :
    val_main_v10 (F := Ideal) x0 x3 x4 (ix2 r j)
      = projEntry (fun k => val_main_v0 (F := Ideal) x0 (ix2 r k)) x3 (fun j => x4 (ix1 j)) j := by
  rw [val_main_v10_apply, val_main_v7_apply, val_main_v9_apply, val_main_v8_apply]
  generalize val_main_v0 (F := Ideal) x0 = z
  simp only [val_main_v6_apply]
  have el : ∀ k : Fin 2048, lidx_main_v7 (ix2 r j) k = ix2 r k := fun k => by idx_cases
  have er : ∀ k : Fin 2048, idx_main_v6 (ridx_main_v7 (ix2 r j) k) = ix2 j k := fun k => by idx_cases
  have eb : idx_main_v8 (idx_main_v9 (ix2 r j)) = ix1 j := by idx_cases
  simp only [el, er, eb]
  rfl

/-- So the key projection is the specification's array. -/
theorem v10_eq (x0 : A3) (x3 : A2) (x4 : A1) :
    val_main_v10 (F := Ideal) x0 x3 x4 = projArr (val_main_v0 (F := Ideal) x0) x3 x4 := by
  funext i
  obtain ⟨r, j, rfl⟩ : ∃ (r j : Fin 2048), i = ix2 r j := ⟨i 0, i 1, eq_ix2 i⟩
  rw [v10_entry]
  generalize val_main_v0 (F := Ideal) x0 = z
  rfl

/-- Entry `(r, j)` of the value projection: row `r` of the flattened input against row `j` of the weights, plus the bias. -/
theorem v15_entry (x0 : A3) (x5 : A2) (x6 : A1) (r j : Fin 2048) :
    val_main_v15 (F := Ideal) x0 x5 x6 (ix2 r j)
      = projEntry (fun k => val_main_v0 (F := Ideal) x0 (ix2 r k)) x5 (fun j => x6 (ix1 j)) j := by
  rw [val_main_v15_apply, val_main_v12_apply, val_main_v14_apply, val_main_v13_apply]
  generalize val_main_v0 (F := Ideal) x0 = z
  simp only [val_main_v11_apply]
  have el : ∀ k : Fin 2048, lidx_main_v12 (ix2 r j) k = ix2 r k := fun k => by idx_cases
  have er : ∀ k : Fin 2048, idx_main_v11 (ridx_main_v12 (ix2 r j) k) = ix2 j k := fun k => by idx_cases
  have eb : idx_main_v13 (idx_main_v14 (ix2 r j)) = ix1 j := by idx_cases
  simp only [el, er, eb]
  rfl

/-- So the value projection is the specification's array. -/
theorem v15_eq (x0 : A3) (x5 : A2) (x6 : A1) :
    val_main_v15 (F := Ideal) x0 x5 x6 = projArr (val_main_v0 (F := Ideal) x0) x5 x6 := by
  funext i
  obtain ⟨r, j, rfl⟩ : ∃ (r j : Fin 2048), i = ix2 r j := ⟨i 0, i 1, eq_ix2 i⟩
  rw [v15_entry]
  generalize val_main_v0 (F := Ideal) x0 = z
  rfl

/-! ## The scores -/

/-- Entry `(r, s)` of the scaled scores: row `r` of the queries against row `s` of the keys (the transpose turns
    the right operand's index `(d, s)` into `(s, d)`), times the scale word. -/
theorem v19_entry (x0 : A3) (x1 : A2) (x2 : A1) (x3 : A2) (x4 : A1) (r s : Fin 2048) :
    val_main_v19 (F := Ideal) x0 x1 x2 x3 x4 (ix2 r s)
      = scoreRow (fun d => val_main_v5 (F := Ideal) x0 x1 x2 (ix2 r d)) (val_main_v10 (F := Ideal) x0 x3 x4) s := by
  rw [val_main_v19_apply, val_main_v17_apply, val_main_v18_apply, val_main_cst_apply]
  generalize val_main_v5 (F := Ideal) x0 x1 x2 = q
  simp only [val_main_v16_apply]
  generalize val_main_v10 (F := Ideal) x0 x3 x4 = kk
  have el : ∀ d : Fin 2048, lidx_main_v17 (ix2 r s) d = ix2 r d := fun d => by idx_cases
  have er : ∀ d : Fin 2048, idx_main_v16 (ridx_main_v17 (ix2 r s) d) = ix2 s d := fun d => by idx_cases
  simp only [el, er]
  rfl

/-! ## The row maximum -/

/-- The host's reduction by `max` along the second axis, at row `r`: the fold of `max`, from the initial value's one
    element, over the second axis's coordinates, each inserted into the row's index. -/
theorem hostMax_lift (y : S2048x2048.Idx → EReal) (init : S_.Idx → EReal) (r : Fin 2048) (h : S2048x2048.Reduces [1] S2048) :
    Host.reduce (α := EReal) (FloatOps.maximumf (F := Ideal) (φ := .f32)) y init reducesTo_S2048x2048_S2048_d1 h_S_ (ix1 r)
      = (Finset.univ : Finset (Fin (S2048x2048.size 1))).fold (FloatOps.maximumf (F := Ideal) (φ := .f32))
          (init (Shape.Idx.first h_S_)) (y ∘ h.lift (ix1 r)) :=
  Host.reduce_eq_fold_single _ y init reducesTo_S2048x2048_S2048_d1 h h_S_ (ix1 r)

/-- Row `r` with the coordinate `s` inserted on the second axis is the index `(r, s)`. -/
theorem lift_row (r : Fin 2048) (h : S2048x2048.Reduces [1] S2048) (s : Fin 2048) : h.lift (ix1 r) s = ix2 r s := by
  idx_cases

/-- So the fold is over the row's entries. -/
theorem fold_lift_row (y : S2048x2048.Idx → EReal) (b : EReal) (r : Fin 2048) (h : S2048x2048.Reduces [1] S2048) :
    (Finset.univ : Finset (Fin (S2048x2048.size 1))).fold (FloatOps.maximumf (F := Ideal) (φ := .f32)) b (y ∘ h.lift (ix1 r))
      = (Finset.univ : Finset (Fin 2048)).fold max b (fun s => y (ix2 r s)) :=
  congrArg (fun f : Fin 2048 → EReal => (Finset.univ : Finset (Fin 2048)).fold max b f)
    (funext fun s => congrArg y (lift_row r h s))

/-- The host's reduction by `max` along the second axis, at row `r`: the fold of `max` over the row's entries,
    from the initial value's one element. -/
theorem hostMax_row (y : S2048x2048.Idx → EReal) (init : S_.Idx → EReal) (r : Fin 2048) :
    Host.reduce (α := EReal) (FloatOps.maximumf (F := Ideal) (φ := .f32)) y init reducesTo_S2048x2048_S2048_d1 h_S_ (ix1 r)
      = (Finset.univ : Finset (Fin 2048)).fold max (init (Shape.Idx.first h_S_)) (fun s => y (ix2 r s)) :=
  (hostMax_lift y init r (by decide)).trans (fold_lift_row y _ r _)

/-- The row maximum the reference takes — the maximum of the word of −∞ with the reduction started from that same
    word — is the specification's: the outer maximum changes nothing. -/
theorem v22_entry (x0 : A3) (x1 : A2) (x2 : A1) (x3 : A2) (x4 : A1) (r : Fin 2048) :
    val_main_v22 (F := Ideal) x0 x1 x2 x3 x4 (ix1 r)
      = rowMax (fun s => val_main_v19 (F := Ideal) x0 x1 x2 x3 x4 (ix2 r s)) := by
  rw [val_main_v22_apply, val_main_v21_apply, val_main_cst_1_apply]
  unfold val_main_v20
  generalize val_main_v19 (F := Ideal) x0 x1 x2 x3 x4 = y
  rw [hostMax_row, val_main_cst_0_apply]
  exact max_fold_max_self _ _ _

/-! ## The exponentials, their sum, the quotient -/

theorem v26_entry (x0 : A3) (x1 : A2) (x2 : A1) (x3 : A2) (x4 : A1) (r s : Fin 2048) :
    val_main_v26 (F := Ideal) x0 x1 x2 x3 x4 (ix2 r s)
      = expRow (fun s' => val_main_v19 (F := Ideal) x0 x1 x2 x3 x4 (ix2 r s')) s := by
  rw [val_main_v26_apply, val_main_v25_apply, val_main_v24_apply, val_main_v23_apply]
  have e : idx_main_v23 (idx_main_v24 (ix2 r s)) = ix1 r := by idx_cases
  rw [e, v22_entry]
  generalize val_main_v19 (F := Ideal) x0 x1 x2 x3 x4 = y
  rfl

/-- The row sum starts from the zero word, which is `0`. -/
theorem v27_entry (x0 : A3) (x1 : A2) (x2 : A1) (x3 : A2) (x4 : A1) (r : Fin 2048) :
    val_main_v27 (F := Ideal) x0 x1 x2 x3 x4 (ix1 r)
      = ∑ s : Fin 2048, expRow (fun s' => val_main_v19 (F := Ideal) x0 x1 x2 x3 x4 (ix2 r s')) s := by
  rw [val_main_v27_apply, val_main_cst_2_apply]
  have e : ∀ k : Fin 2048, idx_main_v27 (ix1 r) k = ix2 r k := fun k => by idx_cases
  simp only [e, v26_entry]
  generalize val_main_v19 (F := Ideal) x0 x1 x2 x3 x4 = y
  show Ideal.ofBits .f32 0x00000000#32 + _ = _
  rw [Ideal.ofBits_zero_f32, zero_add]

theorem v30_entry (x0 : A3) (x1 : A2) (x2 : A1) (x3 : A2) (x4 : A1) (r s : Fin 2048) :
    val_main_v30 (F := Ideal) x0 x1 x2 x3 x4 (ix2 r s)
      = softRow (fun s' => val_main_v19 (F := Ideal) x0 x1 x2 x3 x4 (ix2 r s')) s := by
  rw [val_main_v30_apply, val_main_v29_apply, val_main_v28_apply]
  have e : idx_main_v28 (idx_main_v29 (ix2 r s)) = ix1 r := by idx_cases
  rw [e, v27_entry, v26_entry]
  generalize val_main_v19 (F := Ideal) x0 x1 x2 x3 x4 = y
  rfl

/-! ## The output -/

/-- Entry `(r, j)` of the last contraction: the normalised scores of row `r` against column `j` of the values. -/
theorem v31_entry (x0 : A3) (x1 : A2) (x2 : A1) (x3 : A2) (x4 : A1) (x5 : A2) (x6 : A1) (r j : Fin 2048) :
    val_main_v31 (F := Ideal) x0 x1 x2 x3 x4 x5 x6 (ix2 r j)
      = attnEntry (fun d => val_main_v5 (F := Ideal) x0 x1 x2 (ix2 r d)) (val_main_v10 (F := Ideal) x0 x3 x4)
          (val_main_v15 (F := Ideal) x0 x5 x6) j := by
  rw [val_main_v31_apply]
  have el : ∀ k : Fin 2048, lidx_main_v31 (ix2 r j) k = ix2 r k := fun k => by idx_cases
  have er : ∀ k : Fin 2048, ridx_main_v31 (ix2 r j) k = ix2 k j := fun k => by idx_cases
  have hs : (fun s' => val_main_v19 (F := Ideal) x0 x1 x2 x3 x4 (ix2 r s'))
      = scoreRow (fun d => val_main_v5 (F := Ideal) x0 x1 x2 (ix2 r d)) (val_main_v10 (F := Ideal) x0 x3 x4) :=
    funext fun s' => v19_entry x0 x1 x2 x3 x4 r s'
  simp only [el, er, v30_entry, hs]
  generalize val_main_v5 (F := Ideal) x0 x1 x2 = q
  generalize val_main_v10 (F := Ideal) x0 x3 x4 = kk
  generalize val_main_v15 (F := Ideal) x0 x5 x6 = vv
  rfl

/-- The reference's last stage before the final reshape is the attention of the flattened input. -/
theorem ref_eq (x0 : (⟨S2048x32x64, .f32⟩ : BufTy).Contents (Elt Ideal)) (x1 : (⟨S2048x2048, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) :
    Cert.ReferenceIdeal.Read.val_main_v31 (F := Ideal) x0 x1 x2 x3 x4 x5 x6
      = Cert.Attn.attention (Cert.ReferenceIdeal.Read.val_main_v0 (F := Ideal) x0) x1 x3 x5 x2 x4 x6 := by
  funext i
  obtain ⟨r, j, rfl⟩ : ∃ (r j : Fin 2048), i = ix2 r j := ⟨i 0, i 1, eq_ix2 i⟩
  rw [v31_entry, v5_eq, v10_eq, v15_eq]
  generalize val_main_v0 (F := Ideal) x0 = z
  rfl

end Cert.ReferenceIdeal.RefValue

end
-- ==== Proof.lean ====
/-
  Single-head self-attention over 2048 assets, a two-kernel implementation against its plain reference, equal on the
  extended reals.

  Both programs flatten the latents to a 2048 × 2048 array `Z`, form queries, keys and values `Z · Wᵀ + b` with three
  weight/bias pairs, scale the queries' inner products with the keys by 1/8, normalise each row by the exponential of
  its distance to the row's maximum over the sum of those exponentials, multiply by the values, and reshape back.
  The kernel program does the projections in one kernel and the attention in a second, each over eight blocks of 256
  rows, with sixteen-bit intermediate arrays; the reference does everything on whole arrays with transposes. On the
  extended reals a change of float format is the identity, a matrix unit's product into a zero accumulator and the
  host's contraction are the same sum, and every quantity of an output row depends on the queries through that row
  alone, so the blocks are the rows of the whole computation: both results are the reshape of ONE function of the
  arguments (`Cert.Attn.attention`). The same sums of the same products appear on both sides, so the precondition that the
  inputs are finite is never opened.

  The frames of the two kernel programs are the generated ones; the reference's frame is its generated run with the
  result dropped; no operation was rewritten by the idealization, so there is nothing to preserve.
-/
import proofs.«116185_j60455959658874_2_alg».proof.Defs
import proofs.«116185_j60455959658874_2_alg».proof.Proof.Gen.Kernel
import proofs.«116185_j60455959658874_2_alg».proof.Proof.Gen.Kernel.Frame
import proofs.«116185_j60455959658874_2_alg».proof.Proof.Gen.KernelIdeal
import proofs.«116185_j60455959658874_2_alg».proof.Proof.Gen.KernelIdeal.Frame
import proofs.«116185_j60455959658874_2_alg».proof.Proof.Gen.ReferenceIdeal
import proofs.«116185_j60455959658874_2_alg».proof.Proof.Gen.Pre_finite_inputs
import proofs.«116185_j60455959658874_2_alg».proof.Proof.Gen.ReferenceIdeal.Run
import proofs.«116185_j60455959658874_2_alg».proof.Proof.Gen.ReferenceIdeal.Read
import proofs.«116185_j60455959658874_2_alg».proof.Proof.KernelValue
import proofs.«116185_j60455959658874_2_alg».proof.Proof.RefValue

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result, as the same function of ITS arguments: the reshape of the attention of the flattened
    latents (the generated run's term is the last stage; the stages before the reshape are the specification). -/
theorem reference_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v32 (F := Ideal) m' c
      = shapeCast Cert.ReferenceIdeal.S2048x32x64
          (Cert.Attn.attention
            (shapeCast Cert.ReferenceIdeal.S2048x2048 (m' ((c.tc : Thread Cert.ReferenceIdeal.nD Cert.ReferenceIdeal.τ).loc Cert.ReferenceIdeal.main_arg0))
              Cert.ReferenceIdeal.Facts₀.shapeCasts_S2048x32x64_S2048x2048)
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg6)))
          Cert.ReferenceIdeal.Facts₀.shapeCasts_S2048x2048_S2048x32x64 := by
  rw [Cert.ReferenceIdeal.Read.val_main_v32_eq]
  unfold Cert.ReferenceIdeal.Read.val_main_v32
  rw [Cert.ReferenceIdeal.RefValue.ref_eq]
  rfl

/-- From memories that agree on the arguments both programs end with the reshape of the attention of the flattened
    latents: the kernel by its segments' fold, the reference by its stages. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [reference_value]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
